-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x9x9x9 : Shape := ⟨4, ![65536, 9, 9, 9]⟩
abbrev S_ : Shape := ⟨0, ![]⟩

class Facts : Prop where
  bcast_S_S65536x9x9x9 : S_.BroadcastsInDim S65536x9x9x9 (![] : Fin 0 → Fin S65536x9x9x9.rank)
  reducesTo_S65536x9x9x9_S_d0_1_2_3 : S65536x9x9x9.ReducesTo [0, 1, 2, 3] S_
  h_S_ : 0 < S_.numel

variable [Facts]

def fn {F : FTy → Type} [FloatOps F] (main_arg0 : FVec F S65536x9x9x9 .f32) : IVec S_ 1 :=
  let main_v0 : FVec F S65536x9x9x9 .f32 := Host.absf main_arg0
  let main_cst : FVec F S_ .f32 := constant S_ .f32 0x7F800000#32
  let main_v1 : FVec F S65536x9x9x9 .f32 := broadcastInDim S65536x9x9x9 ![] bcast_S_S65536x9x9x9 main_cst
  let main_v2 : IVec S65536x9x9x9 1 := cmpf .olt main_v0 main_v1
  let main_c : IVec S_ 1 := constantI S_ 1 1#1
  let main_v3 : IVec S_ 1 := (fun x v => Host.reduce IntOp.andi x v reducesTo_S65536x9x9x9_S_d0_1_2_3 h_S_) main_v2 main_c
  main_v3
-- ==== Kernel.lean ====
abbrev S65536x9x9x9 : Shape := ⟨4, ![65536, 9, 9, 9]⟩
abbrev S2048x9x9x9 : Shape := ⟨4, ![2048, 9, 9, 9]⟩
abbrev S2048x9x9 : Shape := ⟨3, ![2048, 9, 9]⟩
abbrev S2048x9x9x1 : Shape := ⟨4, ![2048, 9, 9, 1]⟩
abbrev S2048x1x9x9 : Shape := ⟨4, ![2048, 1, 9, 9]⟩

abbrev nBuf : Space → Nat
  | .hbm => 2
  | .vmem => 4
  | .smem => 0
  | _ => 0

abbrev bufTy : (tb : Table) → Fin (tcTables nBuf tb) → BufTy
  | .hbm, ⟨0, _⟩ => ⟨S65536x9x9x9, .f32⟩
  | .hbm, ⟨1, _⟩ => ⟨S65536x9x9x9, .f32⟩
  | .local _ .vmem, ⟨0, _⟩ => ⟨S2048x9x9x9, .f32⟩
  | .local _ .vmem, ⟨1, _⟩ => ⟨S2048x9x9x9, .f32⟩
  | .local _ .vmem, ⟨2, _⟩ => ⟨S2048x9x9x9, .f32⟩
  | .local _ .vmem, ⟨3, _⟩ => ⟨S2048x9x9x9, .f32⟩
  | _, _ => ⟨S65536x9x9x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x9x9x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9x9x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x9x9x9_S2048x9x9x9_0_0_0_0 : ∀ a, (![0, 0, 0, 0] : Fin 4 → Nat) a + S2048x9x9x9.size a ≤ S2048x9x9x9.size a
  h_S2048x9x9x9 : 0 < S2048x9x9x9.numel
  reduces_S2048x9x9x9_S2048x9x9 : S2048x9x9x9.Reduces [3] S2048x9x9
  shapeCasts_S2048x9x9_S2048x9x9x1 : S2048x9x9.ShapeCasts S2048x9x9x1
  shapeCasts_S2048x9x9x1_S2048x9x9x1 : S2048x9x9x1.ShapeCasts S2048x9x9x1
  broadcasts_S2048x9x9x1_S2048x9x9x9 : S2048x9x9x1.Broadcasts S2048x9x9x9
  reduces_S2048x9x9x9_S2048x9x9_2 : S2048x9x9x9.Reduces [1] S2048x9x9
  shapeCasts_S2048x9x9_S2048x1x9x9 : S2048x9x9.ShapeCasts S2048x1x9x9
  shapeCasts_S2048x1x9x9_S2048x1x9x9 : S2048x1x9x9.ShapeCasts S2048x1x9x9
  broadcasts_S2048x1x9x9_S2048x9x9x9 : S2048x1x9x9.Broadcasts S2048x9x9x9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x9x9x9.size a ≤ S65536x9x9x9.size a
  hwx0_0 : ∀ i : grid0.Coords, EltTy.bits .f32 = 32 ∨ (Rect.block (s := S65536x9x9x9) S2048x9x9x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9x9x9.size a ≤ S65536x9x9x9.size a
  hwx0_1 : ∀ i : grid0.Coords, EltTy.bits .f32 = 32 ∨ (Rect.block (s := S65536x9x9x9) S2048x9x9x9.size (cc0_transform_1 i) (hinb0_1 i)).WholeWords (EltTy.packing .f32)

variable [Facts₀]

abbrev win0_0 : Pipeline.Window sig grid0 :=
  Pipeline.Window.ofSpec (Memref.whole main_arg0) S2048x9x9x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x9x9x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x9x9x9 : Shape := ⟨4, ![65536, 9, 9, 9]⟩
abbrev S_ : Shape := ⟨0, ![]⟩
abbrev S65536x9x9 : Shape := ⟨3, ![65536, 9, 9]⟩
abbrev S65536x9x9x1 : Shape := ⟨4, ![65536, 9, 9, 1]⟩
abbrev S65536x1x9x9 : Shape := ⟨4, ![65536, 1, 9, 9]⟩

abbrev nBuf : Space → Nat
  | .hbm => 44
  | .vmem => 0
  | .smem => 0
  | _ => 0

abbrev bufTy : (tb : Table) → Fin (tcTables nBuf tb) → BufTy
  | .hbm, ⟨0, _⟩ => ⟨S65536x9x9x9, .f32⟩
  | .hbm, ⟨1, _⟩ => ⟨S_, .f32⟩
  | .hbm, ⟨2, _⟩ => ⟨S65536x9x9, .f32⟩
  | .hbm, ⟨3, _⟩ => ⟨S65536x9x9x1, .f32⟩
  | .hbm, ⟨4, _⟩ => ⟨S_, .f32⟩
  | .hbm, ⟨5, _⟩ => ⟨S65536x9x9x1, .f32⟩
  | .hbm, ⟨6, _⟩ => ⟨S65536x9x9x1, .f32⟩
  | .hbm, ⟨7, _⟩ => ⟨S_, .f32⟩
  | .hbm, ⟨8, _⟩ => ⟨S65536x9x9x1, .f32⟩
  | .hbm, ⟨9, _⟩ => ⟨S65536x9x9x1, .f32⟩
  | .hbm, ⟨10, _⟩ => ⟨S_, .f32⟩
  | .hbm, ⟨11, _⟩ => ⟨S65536x9x9x1, .f32⟩
  | .hbm, ⟨12, _⟩ => ⟨S65536x9x9x1, .f32⟩
  | .hbm, ⟨13, _⟩ => ⟨S65536x9x9x1, .f32⟩
  | .hbm, ⟨14, _⟩ => ⟨S65536x9x9x9, .f32⟩
  | .hbm, ⟨15, _⟩ => ⟨S65536x9x9x9, .f32⟩
  | .hbm, ⟨16, _⟩ => ⟨S_, .f32⟩
  | .hbm, ⟨17, _⟩ => ⟨S65536x9x9, .f32⟩
  | .hbm, ⟨18, _⟩ => ⟨S65536x1x9x9, .f32⟩
  | .hbm, ⟨19, _⟩ => ⟨S_, .f32⟩
  | .hbm, ⟨20, _⟩ => ⟨S65536x1x9x9, .f32⟩
  | .hbm, ⟨21, _⟩ => ⟨S65536x1x9x9, .f32⟩
  | .hbm, ⟨22, _⟩ => ⟨S_, .f32⟩
  | .hbm, ⟨23, _⟩ => ⟨S65536x1x9x9, .f32⟩
  | .hbm, ⟨24, _⟩ => ⟨S65536x1x9x9, .f32⟩
  | .hbm, ⟨25, _⟩ => ⟨S65536x9x9x9, .f32⟩
  | .hbm, ⟨26, _⟩ => ⟨S65536x9x9x9, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S65536x9x9x9, .f32⟩
  | .hbm, ⟨31, _⟩ => ⟨S65536x9x9x9, .f32⟩
  | .hbm, ⟨32, _⟩ => ⟨S_, .f32⟩
  | .hbm, ⟨33, _⟩ => ⟨S65536x9x9x9, .f32⟩
  | .hbm, ⟨34, _⟩ => ⟨S65536x9x9x9, .f32⟩
  | .hbm, ⟨35, _⟩ => ⟨S65536x9x9x9, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S65536x9x9x9, .f32⟩
  | .hbm, ⟨40, _⟩ => ⟨S65536x9x9x9, .f32⟩
  | .hbm, ⟨41, _⟩ => ⟨S_, .f32⟩
  | .hbm, ⟨42, _⟩ => ⟨S65536x9x9x9, .f32⟩
  | .hbm, ⟨43, _⟩ => ⟨S65536x9x9x9, .f32⟩
  | _, _ => ⟨S65536x9x9x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_call1_cst : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_call2_cst : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_cst_4 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_cst_6 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_call4_v3 : Ref sig .tc := ⟨.hbm, 41, rfl⟩
abbrev main_call4_v4 : Ref sig .tc := ⟨.hbm, 42, rfl⟩
abbrev main_v18 : Ref sig .tc := ⟨.hbm, 43, rfl⟩

abbrev nD : Nat := 1
abbrev τ : Topo := Topo.v7x

variable {F : FTy → Type} [FloatOps F]

class Facts₀ : Prop where
  reducesTo_S65536x9x9x9_S65536x9x9_d3 : S65536x9x9x9.ReducesTo [3] S65536x9x9
  h_S_ : 0 < S_.numel
  bcast_S65536x9x9_S65536x9x9x1_0_1_2 : S65536x9x9.BroadcastsInDim S65536x9x9x1 (![0, 1, 2] : Fin 3 → Fin S65536x9x9x1.rank)
  bcast_S_S65536x9x9x1 : S_.BroadcastsInDim S65536x9x9x1 (![] : Fin 0 → Fin S65536x9x9x1.rank)
  bcast_S65536x9x9x1_S65536x9x9x9_0_1_2_3 : S65536x9x9x1.BroadcastsInDim S65536x9x9x9 (![0, 1, 2, 3] : Fin 4 → Fin S65536x9x9x9.rank)
  reducesTo_S65536x9x9x9_S65536x9x9_d1 : S65536x9x9x9.ReducesTo [1] S65536x9x9
  bcast_S65536x9x9_S65536x1x9x9_0_2_3 : S65536x9x9.BroadcastsInDim S65536x1x9x9 (![0, 2, 3] : Fin 3 → Fin S65536x1x9x9.rank)
  bcast_S_S65536x1x9x9 : S_.BroadcastsInDim S65536x1x9x9 (![] : Fin 0 → Fin S65536x1x9x9.rank)
  bcast_S65536x1x9x9_S65536x9x9x9_0_1_2_3 : S65536x1x9x9.BroadcastsInDim S65536x9x9x9 (![0, 1, 2, 3] : Fin 4 → Fin S65536x9x9x9.rank)
  bcast_S_S65536x9x9x9 : S_.BroadcastsInDim S65536x9x9x9 (![] : Fin 0 → Fin S65536x9x9x9.rank)

variable [Facts₀]

class Facts : Prop extends Facts₀ where

variable [Facts]
-- ==== Proof.Spec.lean ====
/-
  The function both programs compute, stated once.

  The array is a batch of 65536 independent samples; one sample is a 9 × 9 × 9 cube `X` of extended reals, read at
  (channel `c`, row `h`, column `w`). For a cube:

    rowSum X c h   = Σ_w X c h w                                   the sum along a row of one channel
    uniq X c h     = min (max s 0) (max (2 − s) 0),  s = rowSum X c h   (for 0/1 entries: 1 exactly when s = 1)
    colSum X h w   = Σ_c min (uniq X c h) (X c h w)                the sum over channels at one cell
    cell X h w     = max (1 − colSum X h w) 0
    out X c h w    = clip₀¹ (min (X c h w) (clip₀¹ (max (cell X h w) (uniq X c h))))

  with clip₀¹ z = min 1 (max 0 z). The literals 0, 1, 2 are kept as the f32 words the programs carry; no law used
  below evaluates them except that the zero word is the extended real 0 (a sum that starts from it is the sum).
  Nothing here needs the entries to be finite: only sums (commutative, associative on the extended reals), one
  subtraction from a literal, and the lattice operations occur, and both programs apply them in the same order.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.UniqueRow

/-- The f32 words for 0, 1 and 2, read as extended reals. -/
abbrev lit0 : EReal := Ideal.ofBits .f32 0x00000000#32
abbrev lit1 : EReal := Ideal.ofBits .f32 0x3F800000#32
abbrev lit2 : EReal := Ideal.ofBits .f32 0x40000000#32

/-- One sample: a 9 × 9 × 9 cube read at (channel, row, column). -/
abbrev Cube : Type := Fin 9 → Fin 9 → Fin 9 → EReal

/-- The sum along row `h` of channel `c`. -/
def rowSum (X : Cube) (c h : Fin 9) : EReal := ∑ k : Fin 9, X c h k

/-- `min (max s 0) (max (2 − s) 0)` of the row's sum `s`: the tent that peaks at `s = 1`. -/
def uniq (X : Cube) (c h : Fin 9) : EReal :=
  min (max (rowSum X c h) lit0) (max (lit2 - rowSum X c h) lit0)

/-- At cell (`h`, `w`), the sum over the channels of the entry capped by its row's tent. -/
def colSum (X : Cube) (h w : Fin 9) : EReal := ∑ k : Fin 9, min (uniq X k h) (X k h w)

/-- `max (1 − colSum) 0`. -/
def cell (X : Cube) (h w : Fin 9) : EReal := max (lit1 - colSum X h w) lit0

/-- The result at (`c`, `h`, `w`): the entry capped by the clipped larger of the cell's term and the row's tent,
    clipped to [0, 1] again. -/
def out (X : Cube) (c h w : Fin 9) : EReal :=
  min lit1 (max lit0 (min (X c h w) (min lit1 (max lit0 (max (cell X h w) (uniq X c h))))))

/-- Sample `b` of a batch of `n` cubes stored as an [n, 9, 9, 9] array. -/
def sample {n : Nat} (x : (⟨4, ![n, 9, 9, 9]⟩ : Shape).Idx → EReal) (b : Fin n) : Cube :=
  fun c h w => x (ix4 b c h w)

/-- The whole result array: every sample mapped by `out`, independently. -/
def G {n : Nat} (x : (⟨4, ![n, 9, 9, 9]⟩ : Shape).Idx → EReal) : (⟨4, ![n, 9, 9, 9]⟩ : Shape).Idx → EReal :=
  fun i => out (sample x (i 0)) (i 1) (i 2) (i 3)

theorem G_ix4 {n : Nat} (x : (⟨4, ![n, 9, 9, 9]⟩ : Shape).Idx → EReal) (b : Fin n) (c h w : Fin 9) :
    G x (ix4 b c h w) = out (sample x b) c h w := rfl

/-- The result at an index depends on the array only through that index's sample. -/
theorem out_congr {X Y : Cube} (hXY : X = Y) (c h w : Fin 9) : out X c h w = out Y c h w := by rw [hXY]

end Cert.UniqueRow

end
-- ==== Proof.RefValue.lean ====
/-
  The reference computes `G`.

  Its program is a chain of whole-array operations; read at the index (b, c, h, w) each is an operation on single
  entries, the two sums are sums over one coordinate (over the column `w` for the row sums, over the channel `c` for
  the cell sums), and each keep-dimension broadcast reads its operand at the same index with the summed coordinate
  set to 0. So the chain read at (b, c, h, w) only ever looks at sample `b`, and is `out` of that sample. The sums
  start from the zero word, which is the extended real 0.
-/
import proofs.«119571_j77034533421712_1_alg».proof.Proof.Gen.ReferenceIdeal.Read
import proofs.«119571_j77034533421712_1_alg».proof.Proof.Spec

noncomputable section

open scoped BigOperators
open Idealize.ShloMosaic Idealize.ShloMosaic.ValueIdx

namespace Cert.UniqueRow.Ref

open Cert.ReferenceIdeal Cert.ReferenceIdeal.Read Cert.UniqueRow

/-- A sum that starts from the zero word is the sum. -/
theorem lit0_add (s : EReal) : Ideal.ofBits .f32 0x00000000#32 + s = s := by
  rw [Ideal.ofBits_zero_f32, zero_add]

variable (x : S65536x9x9x9.Idx → EReal)

/-- The first reduction, kept as a unit column: at (b, c, h, 0) it is the sum of row `h` of channel `c` of sample `b`. -/
theorem rowSum_at (b : Fin 65536) (c h : Fin 9) :
    val_main_v1 (F := Ideal) x (ix4 b c h (0 : Fin 1)) = rowSum (sample x b) c h := by
  rw [val_main_v1_apply, val_main_v0_apply, val_main_cst_apply]
  refine (lit0_add _).trans ?_
  unfold rowSum sample
  refine Finset.sum_congr rfl fun k _ => congrArg x (funext fun a => Fin.ext ?_)
  match a with | ⟨0, _⟩ => rfl | ⟨1, _⟩ => rfl | ⟨2, _⟩ => rfl | ⟨3, _⟩ => rfl

/-- The row's tent, broadcast back along the row: at (b, c, h, w) it is `uniq` of sample `b` at (c, h), whatever `w`. -/
theorem uniq_at (b : Fin 65536) (c h w : Fin 9) :
    val_main_v7 (F := Ideal) x (ix4 b c h w) = uniq (sample x b) c h := by
  have e : idx_main_v7 (ix4 b c h w) = ix4 b c h (0 : Fin 1) := funext fun a => Fin.ext (by
    match a with | ⟨0, _⟩ => rfl | ⟨1, _⟩ => rfl | ⟨2, _⟩ => rfl | ⟨3, _⟩ => rfl)
  rw [val_main_v7_apply, e, val_main_v6_apply, val_main_v2_apply, val_main_v5_apply, val_main_v4_apply, rowSum_at,
    val_main_call0_v0_apply, val_main_call0_cst_apply, val_main_call1_v0_apply, val_main_call1_cst_apply,
    val_main_v3_apply, val_main_cst_0_apply]
  rfl

/-- The cell's term, broadcast back over the channels: at (b, c, h, w) it is `cell` of sample `b` at (h, w), whatever `c`. -/
theorem cell_at (b : Fin 65536) (c h w : Fin 9) :
    val_main_v14 (F := Ideal) x (ix4 b c h w) = cell (sample x b) h w := by
  have e14 : idx_main_v14 (ix4 b c h w) = ix4 b (0 : Fin 1) h w := funext fun a => Fin.ext (by
    match a with | ⟨0, _⟩ => rfl | ⟨1, _⟩ => rfl | ⟨2, _⟩ => rfl | ⟨3, _⟩ => rfl)
  have e10 : idx_main_v10 (ix4 b (0 : Fin 1) h w) = ix3 b h w := funext fun a => Fin.ext (by
    match a with | ⟨0, _⟩ => rfl | ⟨1, _⟩ => rfl | ⟨2, _⟩ => rfl)
  have es : ∑ k : Fin 9, val_main_v8 (F := Ideal) x (idx_main_v9 (ix3 b h w) k) = colSum (sample x b) h w := by
    unfold colSum
    refine Finset.sum_congr rfl fun k _ => ?_
    have ek : idx_main_v9 (ix3 b h w) k = ix4 b k h w := funext fun a => Fin.ext (by
      match a with | ⟨0, _⟩ => rfl | ⟨1, _⟩ => rfl | ⟨2, _⟩ => rfl | ⟨3, _⟩ => rfl)
    rw [ek, val_main_v8_apply, uniq_at]
    rfl
  rw [val_main_v14_apply, e14, val_main_v13_apply, val_main_v12_apply, val_main_v10_apply, e10, val_main_v9_apply, es,
    val_main_cst_1_apply, val_main_v11_apply, val_main_cst_2_apply, val_main_call2_v0_apply, val_main_call2_cst_apply]
  show max (Ideal.ofBits .f32 0x3F800000#32 - (Ideal.ofBits .f32 0x00000000#32 + colSum (sample x b) h w)) (Ideal.ofBits .f32 0x00000000#32) = _
  rw [lit0_add]
  rfl

/-- The reference's result is `G` of its argument. -/
theorem result_eq : val_main_v18 (F := Ideal) x = G x := by
  funext i
  obtain ⟨b, c, h, w, rfl⟩ : ∃ (b : Fin 65536) (c h w : Fin 9), i = ix4 b c h w := ⟨i 0, i 1, i 2, i 3, eq_ix4 i⟩
  rw [G_ix4, val_main_v18_apply, val_main_call4_v4_apply, val_main_call4_v3_apply, val_main_cst_6_apply,
    val_main_call4_v2_apply, val_main_call4_v1_apply, val_main_call4_v0_apply, val_main_cst_5_apply,
    val_main_v17_apply, val_main_v16_apply, val_main_call3_v4_apply, val_main_call3_v3_apply, val_main_cst_4_apply,
    val_main_call3_v2_apply, val_main_call3_v1_apply, val_main_call3_v0_apply, val_main_cst_3_apply,
    val_main_v15_apply, cell_at, uniq_at]
  rfl

end Cert.UniqueRow.Ref

end
-- ==== Proof.KernelBlock.lean ====
/-
  What the kernel's body leaves in one block, entry by entry.

  A block is 2048 consecutive samples of the batch, whole in the other three axes, so every sum the body takes stays
  inside one sample of the block. The body forms the row sums as a lane reduction (a sum over the column coordinate),
  keeps them as a unit column, applies the tent entrywise, broadcasts it back along the row, caps the entries by it,
  sums over the channel coordinate, and finishes entrywise. Read at (p, c, h, w) this is `out` of sample `p` of the
  block at (c, h, w): a reduction with the neutral accumulator is the plain sum over the reduced coordinate, a unit
  axis added by a shape cast reads the operand at the remaining coordinates, and a broadcast along a unit axis reads
  the operand with that coordinate set to 0.
-/
import proofs.«119571_j77034533421712_1_alg».proof.Proof.Gen.KernelIdeal.Value
import proofs.«119571_j77034533421712_1_alg».proof.Proof.Spec
import Idealize.ShloMosaic.PureOps.Ideal.Laws
import Idealize.ShloMosaic.Lib.Pipeline.Value
import Idealize.ShloMosaic.Lib.ValueIdx

noncomputable section

open scoped BigOperators
open Idealize.ShloMosaic Idealize.ShloMosaic.ValueIdx

namespace Cert.UniqueRow.Block

open Cert.KernelIdeal Cert.KernelIdeal.Gen Cert.KernelIdeal.Value Cert.UniqueRow

variable (P : Vec Ideal S2048x9x9x9 .f32)

/-- The body's first reduction: over the column coordinate, from the neutral accumulator. -/
abbrev rowRed : FVec Ideal S2048x9x9 .f32 :=
  multiReduction .add [3] S2048x9x9 P 0x00000000#32 reduces_S2048x9x9x9_S2048x9x9 (.inl rfl) rfl

/-- At (p, c, h) it is the sum of row `h` of channel `c` of the block's sample `p`. -/
theorem rowRed_at (p : Fin 2048) (c h : Fin 9) : rowRed P (ix3 p c h) = rowSum (sample (n := 2048) P p) c h := by
  refine (Ideal.multiReduction_add_single P 0x00000000#32 reduces_S2048x9x9x9_S2048x9x9 (.inl rfl) rfl (ix3 p c h)).trans ?_
  unfold rowSum sample
  refine Finset.sum_congr rfl fun k _ => congrArg P (funext fun a => Fin.ext ?_)
  match a with | ⟨0, _⟩ => rfl | ⟨1, _⟩ => rfl | ⟨2, _⟩ => rfl | ⟨3, _⟩ => rfl

/-- The row sums kept as a unit column: at (p, c, h, 0) the same sum. -/
theorem rowCol_at (p : Fin 2048) (c h : Fin 9) :
    shapeCast S2048x9x9x1 (rowRed P) shapeCasts_S2048x9x9_S2048x9x9x1 (ix4 p c h (0 : Fin 1))
      = rowSum (sample (n := 2048) P p) c h := by
  refine (shapeCast_apply _ _ (ix4 p c h (0 : Fin 1)) (ix3 p c h) ?_).trans (rowRed_at P p c h)
  rw [Shape.rowMajor_val_three, Shape.rowMajor_val_four]
  show (p.val * 9 + c.val) * 9 + h.val = ((p.val * 9 + c.val) * 9 + h.val) * 1 + 0
  omega

/-- The rows' tents as the body forms them: entrywise on the unit column, then broadcast back along the row. -/
abbrev tentVec : FVec Ideal S2048x9x9x9 .f32 :=
  broadcastTo S2048x9x9x9 (shapeCast S2048x9x9x1 (minimumf (maximumf (shapeCast S2048x9x9x1 (rowRed P) shapeCasts_S2048x9x9_S2048x9x9x1) (broadcast S2048x9x9x1 (Scalar.ofBits .f32 0x00000000#32))) (maximumf (subf (broadcast S2048x9x9x1 (Scalar.ofBits .f32 0x40000000#32)) (shapeCast S2048x9x9x1 (rowRed P) shapeCasts_S2048x9x9_S2048x9x9x1)) (broadcast S2048x9x9x1 (Scalar.ofBits .f32 0x00000000#32)))) shapeCasts_S2048x9x9x1_S2048x9x9x1) broadcasts_S2048x9x9x1_S2048x9x9x9

/-- At (p, c, h, w) it is the tent of row `h` of channel `c` of sample `p`, whatever `w`. -/
theorem tentVec_at (p : Fin 2048) (c h w : Fin 9) : tentVec P (ix4 p c h w) = uniq (sample (n := 2048) P p) c h := by
  refine (broadcastTo_apply _ _ (ix4 p c h w) (ix4 p c h (0 : Fin 1)) (fun a => ?_)).trans ?_
  · match a with
    | ⟨0, _⟩ => show p.val = if (2048 : Nat) = 1 then 0 else p.val; rw [if_neg (by decide)]
    | ⟨1, _⟩ => show c.val = if (9 : Nat) = 1 then 0 else c.val; rw [if_neg (by decide)]
    | ⟨2, _⟩ => show h.val = if (9 : Nat) = 1 then 0 else h.val; rw [if_neg (by decide)]
    | ⟨3, _⟩ => show 0 = if (1 : Nat) = 1 then 0 else w.val; rw [if_pos rfl]
  rw [shapeCast_self]
  show min (max (shapeCast S2048x9x9x1 (rowRed P) shapeCasts_S2048x9x9_S2048x9x9x1 (ix4 p c h (0 : Fin 1))) lit0)
      (max (lit2 - shapeCast S2048x9x9x1 (rowRed P) shapeCasts_S2048x9x9_S2048x9x9x1 (ix4 p c h (0 : Fin 1))) lit0) = _
  rw [rowCol_at]
  rfl

/-- The body's second reduction: over the channel coordinate, of the entries capped by their rows' tents. -/
abbrev chanRed : FVec Ideal S2048x9x9 .f32 :=
  multiReduction .add [1] S2048x9x9 (minimumf (tentVec P) P) 0x00000000#32 reduces_S2048x9x9x9_S2048x9x9_2 (.inl rfl) rfl

/-- At (p, h, w) it is the cell sum of sample `p` at (h, w). -/
theorem chanRed_at (p : Fin 2048) (h w : Fin 9) : chanRed P (ix3 p h w) = colSum (sample (n := 2048) P p) h w := by
  refine (Ideal.multiReduction_add_single (minimumf (tentVec P) P) 0x00000000#32 reduces_S2048x9x9x9_S2048x9x9_2 (.inl rfl) rfl (ix3 p h w)).trans ?_
  unfold colSum
  refine Finset.sum_congr rfl fun (k : Fin 9) _ => ?_
  have ek : reduces_S2048x9x9x9_S2048x9x9_2.lift (ix3 p h w) k = ix4 p k h w := funext fun a => Fin.ext (by
    match a with | ⟨0, _⟩ => rfl | ⟨1, _⟩ => rfl | ⟨2, _⟩ => rfl | ⟨3, _⟩ => rfl)
  rw [ek]
  show min (tentVec P (ix4 p k h w)) (P (ix4 p k h w)) = _
  rw [tentVec_at]
  rfl

/-- THE BLOCK, ENTRY BY ENTRY: what the body's one store leaves at (p, c, h, w) is `out` of the block's sample `p`. -/
theorem entry_eq (p : Fin 2048) (c h w : Fin 9) :
    E1 (F := Ideal) P (ix4 p c h w) = out (sample (n := 2048) P p) c h w := by
  have i0 : ix1_0 (ix4 p c h w) = ix4 p c h w := funext fun a => Fin.ext (by
    match a with | ⟨0, _⟩ => rfl | ⟨1, _⟩ => rfl | ⟨2, _⟩ => rfl | ⟨3, _⟩ => rfl)
  have i1 : ix1_1 (ix4 p c h w) = ix3 p h w := funext fun a => Fin.ext (by
    match a with | ⟨0, _⟩ => rfl | ⟨1, _⟩ => rfl | ⟨2, _⟩ => rfl)
  have i2 : ix1_2 (ix4 p c h w) = ix3 p c h := funext fun a => Fin.ext (by
    match a with | ⟨0, _⟩ => rfl | ⟨1, _⟩ => rfl | ⟨2, _⟩ => rfl)
  have i3 : ix1_3 (ix4 p c h w) = ix3 p c h := funext fun a => Fin.ext (by
    match a with | ⟨0, _⟩ => rfl | ⟨1, _⟩ => rfl | ⟨2, _⟩ => rfl)
  show min lit1 (max lit0 (min (P (ix1_0 (ix4 p c h w))) (min lit1 (max lit0 (max
      (max (lit1 - chanRed P (ix1_1 (ix4 p c h w))) lit0)
      (min (max (rowRed P (ix1_2 (ix4 p c h w))) lit0) (max (lit2 - rowRed P (ix1_3 (ix4 p c h w))) lit0))))))) = _
  rw [i0, i1, i2, i3, chanRed_at, rowRed_at]
  rfl

/-- The same for a block that is samples `q·2048 …` of a batch `x`: its entry under an index `i` of the batch is
    `G x i`, because `out` at an index reads only that index's sample. -/
theorem entry_eq_G (x : S65536x9x9x9.Idx → EReal) (q : Nat)
    (hP : ∀ (y : S2048x9x9x9.Idx) (i : S65536x9x9x9.Idx), (i 0).val = q * 2048 + (y 0).val → (i 1).val = (y 1).val →
      (i 2).val = (y 2).val → (i 3).val = (y 3).val → P y = x i)
    (y : S2048x9x9x9.Idx) (i : S65536x9x9x9.Idx) (h0 : (i 0).val = q * 2048 + (y 0).val) (h1 : (i 1).val = (y 1).val)
    (h2 : (i 2).val = (y 2).val) (h3 : (i 3).val = (y 3).val) :
    E1 (F := Ideal) P y = G (n := 65536) x i := by
  obtain ⟨p, c, h, w, rfl⟩ : ∃ (p : Fin 2048) (c h w : Fin 9), y = ix4 p c h w := ⟨y 0, y 1, y 2, y 3, eq_ix4 y⟩
  obtain ⟨b, c', h', w', rfl⟩ : ∃ (b : Fin 65536) (c' h' w' : Fin 9), i = ix4 b c' h' w' := ⟨i 0, i 1, i 2, i 3, eq_ix4 i⟩
  obtain rfl : c' = c := Fin.ext h1
  obtain rfl : h' = h := Fin.ext h2
  obtain rfl : w' = w := Fin.ext h3
  rw [entry_eq, G_ix4]
  refine out_congr (funext fun c2 => funext fun r2 => funext fun w2 => ?_) c' h' w'
  exact hP (ix4 p c2 r2 w2) (ix4 b c2 r2 w2) h0 rfl rfl rfl

end Cert.UniqueRow.Block

end
-- ==== Proof.KernelArray.lean ====
/-
  From blocks to the array: after the kernel's run the result array is `G` of the argument.

  The grid has 32 points; at point `t` both windows' blocks are samples `t·2048 … t·2048 + 2047` of the batch, whole in
  the other three axes (the index maps, decided over the grid). So the input block at `t` holds the argument's
  entries of those samples, what the point writes back is `G` of the argument read through the same block (the
  body's result at an entry reads only that entry's sample, which lies in the block), and since sample `b` lies in
  the block of point `b / 2048` the blocks cover the array.
-/
import proofs.«119571_j77034533421712_1_alg».proof.Proof.Gen.KernelIdeal.Value
import proofs.«119571_j77034533421712_1_alg».proof.Proof.KernelBlock
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.UniqueRow.Array

open Cert.KernelIdeal Cert.KernelIdeal.Gen Cert.KernelIdeal.Value Cert.UniqueRow

variable (m : (ℓ : Loc nD τ sig) → Buf (Elt Ideal) ℓ) (ρ : Dev nD → PrngReg)

theorem hz : (![0, 0, 0, 0] : Fin 4 → Nat) = fun _ => 0 := funext fun a => by fin_cases a <;> rfl

/-- The two index maps, decided over the 32 grid points: both blocks at point `t` sit at block index `t` along the
    batch axis and at 0 along the others. -/
theorem idx_facts : ∀ t : Fin cfg0.N,
    win0_0.index t (0 : Fin 4) = win0_1.index t (0 : Fin 4) ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The input block at point `t` holds the argument's entries of its 2048 samples. -/
theorem iblk_apply (c : Dev nD) (t : Fin cfg0.N) (y : S2048x9x9x9.Idx) (i : S65536x9x9x9.Idx)
    (h0 : (i 0).val = win0_1.index t (0 : Fin 4) * 2048 + (y 0).val) (h1 : (i 1).val = (y 1).val)
    (h2 : (i 2).val = (y 2).val) (h3 : (i 3).val = (y 3).val) :
    (iblk m c 0 t : Vec Ideal S2048x9x9x9 .f32) y = (V m c main_arg0 : S65536x9x9x9.Idx → EReal) i := by
  obtain ⟨e0, e1, e2, e3, -, -, -, -⟩ := idx_facts t
  unfold iblk
  rw [View.read_apply]
  show V m c main_arg0 _ = V m c main_arg0 _
  congr 1
  funext a
  apply Fin.ext
  match a with
  | ⟨0, _⟩ => show win0_0.index t (0 : Fin 4) * 2048 + 1 * (y 0).val = (i 0).val; rw [e0, h0]; omega
  | ⟨1, _⟩ => show win0_0.index t (1 : Fin 4) * 9 + 1 * (y 1).val = (i 1).val; rw [e1, h1]; omega
  | ⟨2, _⟩ => show win0_0.index t (2 : Fin 4) * 9 + 1 * (y 2).val = (i 2).val; rw [e2, h2]; omega
  | ⟨3, _⟩ => show win0_0.index t (3 : Fin 4) * 9 + 1 * (y 3).val = (i 3).val; rw [e3, h3]; omega

/-- WHAT POINT `t` WRITES BACK is block `t` of `G` of the argument. -/
theorem flushed_eq (c : Dev nD) (t : Fin cfg0.N) :
    (dats m 0 c).flushed 1 t
      = ((cfg0.win 1).blk t).view.read (Elt Ideal) (G (n := 65536) (V m c main_arg0 : S65536x9x9x9.Idx → EReal)) := by
  rw [flushed1]
  unfold out0_1
  simp only [View.ld_unit_zero (S := S2048x9x9x9) hz]
  funext j
  show (View.canon [(⟨r0_0, k0_pay1 (iblk m c 0 t)⟩ : View.Piece (Elt Ideal) S2048x9x9x9 .f32)] : Vec Ideal S2048x9x9x9 .f32) j
    = G (n := 65536) (V m c main_arg0 : S65536x9x9x9.Idx → EReal) (((cfg0.win 1).blk t).view.emb j)
  refine (canon1_eq (iblk m c 0 t) j).trans ?_
  obtain ⟨-, -, -, -, -, e1, e2, e3⟩ := idx_facts t
  refine Block.entry_eq_G (iblk m c 0 t) (V m c main_arg0 : S65536x9x9x9.Idx → EReal) (win0_1.index t (0 : Fin 4))
    (fun y i h0 h1 h2 h3 => iblk_apply m c t y i h0 h1 h2 h3) j (((cfg0.win 1).blk t).view.emb j) ?_ ?_ ?_ ?_
  · show win0_1.index t (0 : Fin 4) * 2048 + 1 * (j 0).val = win0_1.index t (0 : Fin 4) * 2048 + (j 0).val; omega
  · show win0_1.index t (1 : Fin 4) * 9 + 1 * (j 1).val = (j 1).val; rw [e1]; omega
  · show win0_1.index t (2 : Fin 4) * 9 + 1 * (j 2).val = (j 2).val; rw [e2]; omega
  · show win0_1.index t (3 : Fin 4) * 9 + 1 * (j 3).val = (j 3).val; rw [e3]; omega

/-- An index of the array is in point `t`'s block iff each coordinate is in the block's range on its axis. -/
theorem mem_blk (t : Fin cfg0.N) (i : S65536x9x9x9.Idx) :
    i ∈ ((cfg0.win 1).blk t).view.set ↔ ∀ a : Fin 4, win0_1.index t a * S2048x9x9x9.size a ≤ (i a).val
      ∧ (i a).val < win0_1.index t a * S2048x9x9x9.size a + S2048x9x9x9.size a := by
  show i ∈ ((View.whole main_v0).slice (win0_1.rect t)).set ↔ _
  rw [View.set_slice_whole, Rect.mem_set_unit]
  exact Iff.rfl

/-- THE COVER: sample `b` lies in the block of point `b / 2048`. -/
theorem cover (i : S65536x9x9x9.Idx) :
    ∃ t : Fin cfg0.N, (cfg0.win 1).flush t = true ∧ i ∈ ((cfg0.win 1).blk t).view.set := by
  have hN : grid0.N = 32 := N_0
  have hi0 : (i 0).val < 65536 := (i 0).isLt
  have hi1 : (i 1).val < 9 := (i 1).isLt
  have hi2 : (i 2).val < 9 := (i 2).isLt
  have hi3 : (i 3).val < 9 := (i 3).isLt
  have ht : (i 0).val / 2048 < cfg0.N := by show (i 0).val / 2048 < grid0.N; rw [hN]; omega
  obtain ⟨-, -, -, -, e0, e1, e2, e3⟩ := idx_facts ⟨(i 0).val / 2048, ht⟩
  refine ⟨⟨(i 0).val / 2048, ht⟩, flush0_1 _, ?_⟩
  rw [mem_blk]
  intro a
  match a with
  | ⟨0, _⟩ =>
    show win0_1.index ⟨(i 0).val / 2048, ht⟩ (0 : Fin 4) * 2048 ≤ (i 0).val
      ∧ (i 0).val < win0_1.index ⟨(i 0).val / 2048, ht⟩ (0 : Fin 4) * 2048 + 2048
    rw [e0]; show (i 0).val / 2048 * 2048 ≤ (i 0).val ∧ (i 0).val < (i 0).val / 2048 * 2048 + 2048; omega
  | ⟨1, _⟩ =>
    show win0_1.index ⟨(i 0).val / 2048, ht⟩ (1 : Fin 4) * 9 ≤ (i 1).val
      ∧ (i 1).val < win0_1.index ⟨(i 0).val / 2048, ht⟩ (1 : Fin 4) * 9 + 9
    rw [e1]; omega
  | ⟨2, _⟩ =>
    show win0_1.index ⟨(i 0).val / 2048, ht⟩ (2 : Fin 4) * 9 ≤ (i 2).val
      ∧ (i 2).val < win0_1.index ⟨(i 0).val / 2048, ht⟩ (2 : Fin 4) * 9 + 9
    rw [e2]; omega
  | ⟨3, _⟩ =>
    show win0_1.index ⟨(i 0).val / 2048, ht⟩ (3 : Fin 4) * 9 ≤ (i 3).val
      ∧ (i 3).val < win0_1.index ⟨(i 0).val / 2048, ht⟩ (3 : Fin 4) * 9 + 9
    rw [e3]; omega

/-- THE ARRAY after the run is `G` of the argument as launched. -/
theorem final (c : Dev nD) :
    (dats m 0 c).arrAt 1 cfg0.N = G (n := 65536) (m ((c : Thread nD τ).loc main_arg0) : S65536x9x9x9.Idx → EReal) :=
  (dats m 0 c).arrAt_eq_of_cover 1 (G (n := 65536) (V m c main_arg0 : S65536x9x9x9.Idx → EReal))
    (fun t _ => flushed_eq m c t) cover

/-- The kernel's run, read: the result array at `G` of the argument, the argument unchanged. -/
theorem run : θ_run defs (onTc (τ := τ) (main (F := Ideal))) ⟨m, fun _ => 0, ρ⟩ fun r => ∀ c : Dev nD,
      r.2.mem ((c : Thread nD τ).loc main_v0) = G (n := 65536) (m ((c : Thread nD τ).loc main_arg0) : S65536x9x9x9.Idx → EReal)
      ∧ r.2.mem ((c : Thread nD τ).loc main_arg0) = m ((c : Thread nD τ).loc main_arg0) :=
  (θ_run defs _ _).mono (fun r h c => ⟨(h c).1.trans (final m c), (h c).2⟩) (run_blocks m ρ)

end Cert.UniqueRow.Array

end
-- ==== Proof.lean ====
/-
  The kernel against its reference, over the extended reals.

  Both programs map a batch of 65536 samples, each a 9 × 9 × 9 cube X read at (channel c, row h, column w), to

    out X c h w = clip₀¹ (min (X c h w) (clip₀¹ (max (cell X h w) (uniq X c h)))),   clip₀¹ z = min 1 (max 0 z),
    uniq X c h  = min (max s 0) (max (2 − s) 0) with s = Σ_w X c h w,
    cell X h w  = max (1 − Σ_c min (uniq X c h) (X c h w)) 0,

  sample by sample (Proof/Spec.lean: `G`). The kernel does it 2048 samples at a time over a grid of 32 points; a sum
  never leaves its sample, so a block of whole samples is mapped exactly as the whole batch is, and the 32 blocks
  tile the batch (Proof/KernelBlock.lean, Proof/KernelArray.lean). The reference does it with whole-array operations
  (Proof/RefValue.lean). The two apply the same operations with the same literals in the same order; the only
  difference is how a sum over one coordinate is spelt (a reduction from the neutral accumulator in the kernel, a
  reduction from an explicit zero on the host), and both are the plain sum. No finiteness of the entries is needed,
  so the precondition is not opened.

  The kernel's idealization rewrote nothing, so that it preserves the kernel is trivially true. The three frames are
  the two programs' generated frames and, for the reference, its generated run with the result dropped.
-/
import proofs.«119571_j77034533421712_1_alg».proof.Defs
import proofs.«119571_j77034533421712_1_alg».proof.Proof.Gen.Kernel
import proofs.«119571_j77034533421712_1_alg».proof.Proof.Gen.Kernel.Frame
import proofs.«119571_j77034533421712_1_alg».proof.Proof.Gen.KernelIdeal
import proofs.«119571_j77034533421712_1_alg».proof.Proof.Gen.KernelIdeal.Frame
import proofs.«119571_j77034533421712_1_alg».proof.Proof.Gen.KernelIdeal.Value
import proofs.«119571_j77034533421712_1_alg».proof.Proof.Gen.ReferenceIdeal
import proofs.«119571_j77034533421712_1_alg».proof.Proof.Gen.ReferenceIdeal.Run
import proofs.«119571_j77034533421712_1_alg».proof.Proof.Gen.ReferenceIdeal.Read
import proofs.«119571_j77034533421712_1_alg».proof.Proof.Gen.Pre_finite_inputs
import proofs.«119571_j77034533421712_1_alg».proof.Proof.RefValue
import proofs.«119571_j77034533421712_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the argument, the kernel's result array ends at `G` of the argument (its blocks
    tile the batch) and the reference's at the same `G` of the same argument. -/
theorem algebraic : Cert.algebraic_KernelIdeal_ReferenceIdeal := by
  intro m ρ m' ρ' _ hagree
  refine ⟨_, Cert.UniqueRow.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.UniqueRow.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
